-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x40 : Shape := ⟨2, ![2097152, 40]⟩
abbrev S_ : Shape := ⟨0, ![]⟩

class Facts : Prop where
  bcast_S_S2097152x40 : S_.BroadcastsInDim S2097152x40 (![] : Fin 0 → Fin S2097152x40.rank)
  reducesTo_S2097152x40_S_d0_1 : S2097152x40.ReducesTo [0, 1] S_
  h_S_ : 0 < S_.numel

variable [Facts]

def fn {F : FTy → Type} [FloatOps F] (main_arg0 : FVec F S2097152x40 .f32) (main_arg1 : FVec F S2097152x40 .f32) : IVec S_ 1 :=
  let main_v0 : FVec F S2097152x40 .f32 := Host.absf main_arg0
  let main_cst : FVec F S_ .f32 := constant S_ .f32 0x7F800000#32
  let main_v1 : FVec F S2097152x40 .f32 := broadcastInDim S2097152x40 ![] bcast_S_S2097152x40 main_cst
  let main_v2 : IVec S2097152x40 1 := cmpf .olt main_v0 main_v1
  let main_c : IVec S_ 1 := constantI S_ 1 1#1
  let main_v3 : IVec S_ 1 := (fun x v => Host.reduce IntOp.andi x v reducesTo_S2097152x40_S_d0_1 h_S_) main_v2 main_c
  let main_v4 : FVec F S2097152x40 .f32 := Host.absf main_arg1
  let main_cst_0 : FVec F S_ .f32 := constant S_ .f32 0x7F800000#32
  let main_v5 : FVec F S2097152x40 .f32 := broadcastInDim S2097152x40 ![] bcast_S_S2097152x40 main_cst_0
  let main_v6 : IVec S2097152x40 1 := cmpf .olt main_v4 main_v5
  let main_c_1 : IVec S_ 1 := constantI S_ 1 1#1
  let main_v7 : IVec S_ 1 := (fun x v => Host.reduce IntOp.andi x v reducesTo_S2097152x40_S_d0_1 h_S_) main_v6 main_c_1
  let main_v8 : IVec S_ 1 := andi main_v3 main_v7
  main_v8
-- ==== Kernel.lean ====
abbrev S2097152x40 : Shape := ⟨2, ![2097152, 40]⟩
abbrev S16x128 : Shape := ⟨2, ![16, 128]⟩
abbrev S8192x40 : Shape := ⟨2, ![8192, 40]⟩
abbrev S8x128 : Shape := ⟨2, ![8, 128]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x40, .f32⟩
  | .local _ .vmem, ⟨1, _⟩ => ⟨S8192x40, .f32⟩
  | .local _ .vmem, ⟨2, _⟩ => ⟨S8192x40, .f32⟩
  | .local _ .vmem, ⟨3, _⟩ => ⟨S8192x40, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S2097152x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v28 : BitVec 1 := Scalar.cmpi .eq arg1 c127_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x40_S8192x40_0_0 : ∀ a, (![0, 0] : Fin 2 → Nat) a + S8192x40.size a ≤ S8192x40.size a
  h_S8192x40 : 0 < S8192x40.numel
  reduces_S8192x40_S8192 : S8192x40.Reduces [1] S8192
  shapeCasts_S8192_S8192x1 : S8192.ShapeCasts S8192x1
  broadcasts_S8192x1_S8192x40 : S8192x1.Broadcasts S8192x40
  reduces_S8192x1_S1 : S8192x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S2097152x40.size a
  hwx0_0 : ∀ i : grid0.Coords, EltTy.bits .f32 = 32 ∨ (Rect.block (s := S2097152x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x40.size a ≤ S2097152x40.size a
  hwx0_1 : ∀ i : grid0.Coords, EltTy.bits .f32 = 32 ∨ (Rect.block (s := S2097152x40) S8192x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2097152x40 : Shape := ⟨2, ![2097152, 40]⟩
abbrev S_ : Shape := ⟨0, ![]⟩
abbrev S2097152 : Shape := ⟨1, ![2097152]⟩
abbrev S2097152x1 : Shape := ⟨2, ![2097152, 1]⟩

abbrev nBuf : Space → Nat
  | .hbm => 25
  | .vmem => 0
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S_, .f32⟩
  | .hbm, ⟨3, _⟩ => ⟨S2097152, .f32⟩
  | .hbm, ⟨4, _⟩ => ⟨S_, .f32⟩
  | .hbm, ⟨5, _⟩ => ⟨S2097152, .f32⟩
  | .hbm, ⟨6, _⟩ => ⟨S2097152, .f32⟩
  | .hbm, ⟨7, _⟩ => ⟨S2097152x1, .f32⟩
  | .hbm, ⟨8, _⟩ => ⟨S2097152x40, .f32⟩
  | .hbm, ⟨9, _⟩ => ⟨S2097152x40, .f32⟩
  | .hbm, ⟨10, _⟩ => ⟨S2097152x40, .f32⟩
  | .hbm, ⟨11, _⟩ => ⟨S_, .f32⟩
  | .hbm, ⟨12, _⟩ => ⟨S2097152, .f32⟩
  | .hbm, ⟨13, _⟩ => ⟨S2097152x1, .f32⟩
  | .hbm, ⟨14, _⟩ => ⟨S2097152x1, .f32⟩
  | .hbm, ⟨15, _⟩ => ⟨S2097152x40, .f32⟩
  | .hbm, ⟨16, _⟩ => ⟨S2097152x40, .f32⟩
  | .hbm, ⟨17, _⟩ => ⟨S2097152x40, .f32⟩
  | .hbm, ⟨18, _⟩ => ⟨S_, .f32⟩
  | .hbm, ⟨19, _⟩ => ⟨S2097152, .f32⟩
  | .hbm, ⟨20, _⟩ => ⟨S2097152, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S2097152x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S2097152x40_S2097152_d1 : S2097152x40.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x40_0_1 : S2097152x1.BroadcastsInDim S2097152x40 (![0, 1] : Fin 2 → Fin S2097152x40.rank)
  reducesTo_S2097152_S_d0 : S2097152.ReducesTo [0] S_

variable [Facts₀]

class Facts : Prop extends Facts₀ where

variable [Facts]
-- ==== Proof.KernelPieces.lean ====
/-
  What one run of the kernel body leaves behind, case by case.

  The body keeps a one-entry accumulator between grid steps. At the first step of a half of the grid it sets the
  accumulator to zero and then adds the step's tile sum; at every other step it adds the tile sum to what the step
  before left; at the last step of a half it also writes the accumulator, spread over an 8 × 128 block, to the output.
  Each case's stores are read back here as the body's pure arithmetic of the blocks it loaded.
-/
import proofs.«120968_j20624432956049_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz : (![0, 0] : Fin 2 → Nat) = fun _ => 0 := funext fun a => by fin_cases a <;> rfl

/-! What each control case leaves in the carried accumulator cell and, in the last case, in the output block: the
    case's covering store read back as the body's arithmetic of the blocks it loaded. -/

/-- A step that is neither a half's first nor its last: the cell holding `acc` ends at the body's accumulation of the
    two input blocks onto `acc`. -/
theorem acc_B (c : Dev nD) (i : grid0.Coords) (arg2 : Memref sig .tc .vmem S8192x40 .f32) (harg2 : arg2.IsWhole) (arg3 : Memref sig .tc .vmem S8192x40 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i) (x0 x1 : Vec F S8192x40 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S8192x40) hz, View.ld_unit_zero (S := S1x1) hz]

/-- A half's last step: the cell ends at the same accumulation, -/
theorem acc_C (c : Dev nD) (i : grid0.Coords) (arg2 : Memref sig .tc .vmem S8192x40 .f32) (harg2 : arg2.IsWhole) (arg3 : Memref sig .tc .vmem S8192x40 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i) (x0 x1 : Vec F S8192x40 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S8192x40) hz, View.ld_unit_zero (S := S1x1) hz]

/-- and the output block at that accumulation spread over its 8 × 128 entries. -/
theorem out_C (c : Dev nD) (i : grid0.Coords) (arg2 : Memref sig .tc .vmem S8192x40 .f32) (harg2 : arg2.IsWhole) (arg3 : Memref sig .tc .vmem S8192x40 .f32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i) (x0 x1 : Vec F S8192x40 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1x1) _ hz]
  simp only [View.readAt_eq_ld, harg2.read_unread, harg3.read_unread, harg5.read_unread,
    View.ld_unit_zero (S := S8192x40) hz, View.ld_unit_zero (S := S1x1) hz]

/-- A half's first step: the cell is first set to zero, then ends at the accumulation onto that zero. -/
theorem acc_A (c : Dev nD) (i : grid0.Coords) (arg2 : Memref sig .tc .vmem S8192x40 .f32) (harg2 : arg2.IsWhole) (arg3 : Memref sig .tc .vmem S8192x40 .f32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i) (x0 x1 : Vec F S8192x40 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, harg5.read_unread,
    View.ld_unit_zero (S := S8192x40) hz, View.ld_unit_zero (S := S1x1) hz]

end Cert.KernelIdeal.Val

end
-- ==== Proof.Spec.lean ====
/-
  The specification: soft-label cross entropy of 2097152 rows of 40 logits against 40 labels each, averaged, as ONE
  function of the two argument arrays over the extended reals.

  A row with logits x and labels t contributes
      loss(x, t) = 0 - Σ_c t_c · (x_c - (M + log Σ_c' exp (x_c' - M))),      M = max_c x_c  (the maximum taken from ⊥),
  the rows are summed in 2 halves of 128 tiles of 8192 consecutive rows each, and the total is divided by 2097152
  (the float 0x4A000000 = 2^21). Row n of the array is row (n mod 8192) of tile (n / 8192).
-/
import Idealize.ShloMosaic.PureOps.Ideal
import Idealize.ShloMosaic.Lib.ValueIdx

noncomputable section

namespace Cert.SoftCE

open Idealize.ShloMosaic Idealize.ShloMosaic.ValueIdx

/-- An array of 2097152 rows of 40 extended reals. -/
abbrev Arr := (⟨2, ![2097152, 40]⟩ : Shape).Idx → EReal

/-- Row `n` of an array. -/
def rowOf (x : Arr) (n : Fin 2097152) : Fin 40 → EReal := fun c => x (ix2 n c)

/-- The maximum of a row, taken from ⊥. -/
def rowMax (xr : Fin 40 → EReal) : EReal := (Finset.univ : Finset (Fin 40)).fold max ⊥ xr

/-- The logarithm of the sum of the exponentials of a row's entries shifted by the row's maximum. -/
def rowLse (xr : Fin 40 → EReal) : EReal := Ideal.log (∑ c : Fin 40, Ideal.exp (xr c - rowMax xr))

/-- One row's loss from its logits `xr` and its labels `tr`. -/
def lossOf (xr tr : Fin 40 → EReal) : EReal :=
  0 - ∑ c : Fin 40, tr c * (xr c - (rowMax xr + rowLse xr))

/-- The loss of row number `n` (zero past the last row). -/
def rowLoss (x t : Arr) (n : ℕ) : EReal :=
  if h : n < 2097152 then lossOf (rowOf x ⟨n, h⟩) (rowOf t ⟨n, h⟩) else 0

/-- The sum of the losses of the 8192 rows of tile `k`. -/
def tileSum (x t : Arr) (k : ℕ) : EReal := ∑ r ∈ Finset.range 8192, rowLoss x t (k * 8192 + r)

/-- The sum over the 128 tiles of half `c`. -/
def halfSum (x t : Arr) (c : ℕ) : EReal := ∑ j ∈ Finset.range 128, tileSum x t (c * 128 + j)

/-- The mean loss. -/
def meanLoss (x t : Arr) : EReal :=
  Ideal.div (halfSum x t 0 + halfSum x t 1) (Ideal.ofBits .f32 0x4A000000#32)

end Cert.SoftCE

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.KernelPayload.lean ====
/-
  The body's arithmetic, read at an index over the extended reals.

  With x the block of logits and t the block of labels (8192 rows of 40), the accumulation payload is
      acc + Σ_r loss(row r of x, row r of t)
  at the accumulator's one entry: the row maximum is a lane maximum from ⊥, the two lane sums are sums over the 40
  entries of a row, the sum over the rows is a sum over the 8192 entries of a column, and the columns [8192, 1] the
  body keeps are read at (r, 0). The zero payload is 0, and the output payload repeats the accumulator's entry.
-/
import proofs.«120968_j20624432956049_2_alg».proof.Proof.Gen.KernelIdeal.Skeleton
import proofs.«120968_j20624432956049_2_alg».proof.Proof.Spec
import proofs.«120968_j20624432956049_2_alg».proof.Proof.LibBroadcast
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Val

open Cert.KernelIdeal Cert.KernelIdeal.Gen Cert.SoftCE Cert.Layout

/-- The float pattern of -∞ is ⊥. -/
theorem ofBits_neg_inf : Ideal.ofBits .f32 0xFF800000#32 = (⊥ : EReal) := by
  simp [Ideal.ofBits, Ideal.ieee]

/-- Row `r` of an [8192, 40] block. -/
def blkRow (x : FVec Ideal S8192x40 .f32) (r : Fin 8192) : Fin 40 → EReal := fun c => x (ix2 r c)

/-- A sum along the 40 lanes of row `r`. -/
theorem laneSum_apply (v : FVec Ideal S8192x40 .f32) (h : S8192x40.Reduces [1] S8192) (hφ : FKind.Formats .f32)
    (hacc : (0x00000000#32 : BitVec 32) = FKind.add.neutral .f32 hφ) (r : Fin 8192) :
    multiReduction .add [1] S8192 v 0x00000000#32 h hφ hacc (ix1 r) = ∑ c : Fin 40, v (ix2 r c) :=
  (Ideal.multiReduction_add_single v _ h hφ hacc (ix1 r)).trans
    (Finset.sum_congr rfl fun c _ => congrArg v (funext fun a => by match a with | ⟨0, _⟩ => rfl | ⟨1, _⟩ => rfl))

/-- The maximum along the 40 lanes of row `r`, taken from ⊥. -/
theorem laneMax_apply (v : FVec Ideal S8192x40 .f32) (h : S8192x40.Reduces [1] S8192) (hφ : FKind.Formats .f32)
    (hacc : (0xFF800000#32 : BitVec 32) = FKind.maximumf.neutral .f32 hφ) (r : Fin 8192) :
    multiReduction .maximumf [1] S8192 v 0xFF800000#32 h hφ hacc (ix1 r) = rowMax (blkRow v r) := by
  refine (Ideal.multiReduction_maximumf_single v _ h hφ hacc (ix1 r)).trans ?_
  unfold rowMax
  rw [Ideal.ofBits_def, ofBits_neg_inf]
  refine congrArg (Finset.fold max ⊥ · Finset.univ) ?_
  funext c
  exact congrArg v (funext fun a => by match a with | ⟨0, _⟩ => rfl | ⟨1, _⟩ => rfl)

/-- A sum down the 8192 rows of a one-column array. -/
theorem colSum_apply (v : FVec Ideal S8192x1 .f32) (h : S8192x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 8192, v (ix2 r (0 : Fin 1)) :=
  (Ideal.multiReduction_add_single v _ h hφ hacc (ix1 (0 : Fin 1))).trans
    (Finset.sum_congr rfl fun r _ => congrArg v (funext fun a => by match a with | ⟨0, _⟩ => rfl | ⟨1, _⟩ => rfl))

/-- The column of row maxima the body keeps. -/
def maxCol (x : FVec Ideal S8192x40 .f32) : FVec Ideal S8192x1 .f32 :=
  shapeCast S8192x1 (multiReduction .maximumf [1] S8192 x 0xFF800000#32 reduces_S8192x40_S8192 (.inl rfl) rfl) shapeCasts_S8192_S8192x1

theorem maxCol_apply (x : FVec Ideal S8192x40 .f32) (r : Fin 8192) : maxCol x (ix2 r (0 : Fin 1)) = rowMax (blkRow x r) :=
  (shapeCast_col_apply _ shapeCasts_S8192_S8192x1 r).trans (laneMax_apply x _ _ _ r)

/-- The column of the logarithms of the rows' shifted exponential sums. -/
def lseCol (x : FVec Ideal S8192x40 .f32) : FVec Ideal S8192x1 .f32 :=
  log (shapeCast S8192x1 (multiReduction .add [1] S8192 (exp (subf x (broadcastTo S8192x40 (maxCol x) broadcasts_S8192x1_S8192x40)))
    0x00000000#32 reduces_S8192x40_S8192 (.inl rfl) rfl) shapeCasts_S8192_S8192x1)

theorem lseCol_apply (x : FVec Ideal S8192x40 .f32) (r : Fin 8192) : lseCol x (ix2 r (0 : Fin 1)) = rowLse (blkRow x r) := by
  show Ideal.log (shapeCast S8192x1 _ shapeCasts_S8192_S8192x1 (ix2 r (0 : Fin 1))) = _
  unfold rowLse
  refine congrArg Ideal.log ?_
  refine (shapeCast_col_apply _ shapeCasts_S8192_S8192x1 r).trans ?_
  refine (laneSum_apply _ _ _ _ r).trans (Finset.sum_congr rfl fun c _ => ?_)
  show Ideal.exp (x (ix2 r c) - broadcastTo S8192x40 (maxCol x) broadcasts_S8192x1_S8192x40 (ix2 r c)) = _
  rw [broadcastTo_a1_ab_apply, maxCol_apply]
  rfl

/-- The accumulation payload is the body's chain over the two columns above. -/
theorem pay2_eq (x t : FVec Ideal S8192x40 .f32) (acc : FVec Ideal S1x1 .f32) :
    k0_pay2 (F := Ideal) x t acc
      = shapeCast S1x1 (addf acc (shapeCast S1x1 (multiReduction .add [0] S1
          (subf (broadcast S8192x1 (Scalar.ofBits .f32 0x00000000#32))
            (shapeCast S8192x1 (multiReduction .add [1] S8192
              (mulf t (subf x (broadcastTo S8192x40 (addf (maxCol x) (lseCol x)) broadcasts_S8192x1_S8192x40)))
              0x00000000#32 reduces_S8192x40_S8192 (.inl rfl) rfl) shapeCasts_S8192_S8192x1))
          0x00000000#32 reduces_S8192x1_S1 (.inl rfl) rfl) shapeCasts_S1_S1x1)) shapeCasts_S1x1_S1x1 := rfl

/-- One row's term of the tile sum. -/
theorem negRow_apply (x t : FVec Ideal S8192x40 .f32) (r : Fin 8192) :
    subf (broadcast S8192x1 (Scalar.ofBits (F := Ideal) .f32 0x00000000#32))
        (shapeCast S8192x1 (multiReduction .add [1] S8192
          (mulf t (subf x (broadcastTo S8192x40 (addf (maxCol x) (lseCol x)) broadcasts_S8192x1_S8192x40)))
          0x00000000#32 reduces_S8192x40_S8192 (.inl rfl) rfl) shapeCasts_S8192_S8192x1) (ix2 r (0 : Fin 1))
      = lossOf (blkRow x r) (blkRow t r) := by
  show Ideal.ofBits .f32 0x00000000#32 - shapeCast S8192x1 _ shapeCasts_S8192_S8192x1 (ix2 r (0 : Fin 1)) = _
  unfold lossOf
  rw [Ideal.ofBits_zero_f32]
  refine congrArg (0 - ·) ?_
  refine (shapeCast_col_apply _ shapeCasts_S8192_S8192x1 r).trans ?_
  refine (laneSum_apply _ _ _ _ r).trans (Finset.sum_congr rfl fun c _ => ?_)
  show t (ix2 r c) * (x (ix2 r c) - broadcastTo S8192x40 (addf (maxCol x) (lseCol x)) broadcasts_S8192x1_S8192x40 (ix2 r c)) = _
  rw [broadcastTo_a1_ab_apply]
  show t (ix2 r c) * (x (ix2 r c) - (maxCol x (ix2 r (0 : Fin 1)) + lseCol x (ix2 r (0 : Fin 1)))) = _
  rw [maxCol_apply, lseCol_apply]
  rfl

/-- THE ACCUMULATION: the accumulator's entry plus the tile's sum of row losses. -/
theorem pay2_apply (x t : FVec Ideal S8192x40 .f32) (acc : FVec Ideal S1x1 .f32) :
    k0_pay2 (F := Ideal) x t acc (ix2 (0 : Fin 1) (0 : Fin 1))
      = acc (ix2 (0 : Fin 1) (0 : Fin 1)) + ∑ r : Fin 8192, lossOf (blkRow x r) (blkRow t r) := by
  rw [pay2_eq, shapeCast_self]
  show acc (ix2 (0 : Fin 1) (0 : Fin 1)) + shapeCast S1x1 _ shapeCasts_S1_S1x1 (ix2 (0 : Fin 1) (0 : Fin 1)) = _
  refine congrArg (acc (ix2 (0 : Fin 1) (0 : Fin 1)) + ·) ?_
  refine (shapeCast_col_apply _ shapeCasts_S1_S1x1 (0 : Fin 1)).trans ?_
  refine (colSum_apply _ _ _ _).trans (Finset.sum_congr rfl fun r _ => ?_)
  exact negRow_apply x t r

/-- The zero payload is 0. -/
theorem pay1_apply (j : S1x1.Idx) : k0_pay1 (F := Ideal) j = 0 := by
  unfold k0_pay1
  rw [shapeCast_self]
  exact Ideal.ofBits_zero_f32

/-- The output payload repeats the accumulator's one entry over the 8 × 128 block. -/
theorem pay3_apply (acc : FVec Ideal S1x1 .f32) (j : S8x128.Idx) :
    k0_pay3 (F := Ideal) acc j = acc (ix2 (0 : Fin 1) (0 : Fin 1)) := by
  unfold k0_pay3
  rw [shapeCast_self]
  refine broadcastTo_apply acc broadcasts_S1x1_S8x128 j (ix2 (0 : Fin 1) (0 : Fin 1)) fun ax => ?_
  match ax with
  | ⟨0, _⟩ => rfl
  | ⟨1, _⟩ => rfl

end Cert.KernelIdeal.Val

end
-- ==== Proof.KernelAcc.lean ====
/-
  The accumulator across the grid.

  The grid's 256 steps run in order; step n works on tile n (rows 8192·n … 8192·n + 8191) and belongs to half n / 128.
  After step n the accumulator's entry is the sum of the tile sums of the steps of n's half up to n: at a half's first
  step it is 0 plus that step's tile sum, at every later step what the step before left plus the step's tile sum. At a
  half's last step the output block holds that entry at each of its 8 × 128 places.
-/
import proofs.«120968_j20624432956049_2_alg».proof.Proof.KernelPieces
import proofs.«120968_j20624432956049_2_alg».proof.Proof.KernelPayload

noncomputable section

open Idealize.ShloMosaic Idealize.ShloMosaic.TcCoe Idealize.SL.Sem Idealize.ShloMosaic.ValueIdx

namespace Cert.KernelIdeal.Val

open Cert.KernelIdeal Cert.KernelIdeal.Gen Cert.SoftCE

variable (m : (ℓ : Loc nD τ sig) → Buf (Elt Ideal) ℓ)

/-- The sum of the row losses of a block of logits against a block of labels. -/
def step (X T : FVec Ideal S8192x40 .f32) : EReal := ∑ r : Fin 8192, lossOf (blkRow X r) (blkRow T r)

/-- The tile sum of grid step `n`, over the blocks the two input windows hold there (zero past the last step). -/
def tileAt (c : Dev nD) (n : ℕ) : EReal :=
  if h : n < cfg0.N then step (iblk m c 0 ⟨n, h⟩) (iblk m c 1 ⟨n, h⟩) else 0

/-- The accumulator's entry after grid step `n`. -/
def cell (c : Dev nD) (n : ℕ) (h : n < cfg0.N) : EReal := (outsAt0 m c n h).2 (ix2 (0 : Fin 1) (0 : Fin 1))

/-- At a half's first step the entry is zero plus the step's tile sum. -/
theorem cell_first (c : Dev nD) (t : Fin cfg0.N) (h0 : t.val % 128 = 0) (h1 : ¬t.val % 128 = 127) :
    cell m c t.val t.isLt = 0 + step (iblk m c 0 t) (iblk m c 1 t) := by
  unfold cell
  rw [outsAt0_A m c t h0 h1]
  refine (congrFun (acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
    (iblk m c 0 t) (iblk m c 1 t)) (ix2 (0 : Fin 1) (0 : Fin 1))).trans ?_
  refine (pay2_apply (iblk m c 0 t) (iblk m c 1 t) (k0_pay1 (F := Ideal))).trans ?_
  rw [pay1_apply]
  rfl

/-- At any later step it is what the step before left plus the step's tile sum. -/
theorem cell_succ (c : Dev nD) (n : ℕ) (h : n + 1 < cfg0.N) (h0 : ¬(n + 1) % 128 = 0) :
    cell m c (n + 1) h = cell m c n (Nat.lt_of_succ_lt h) + step (iblk m c 0 ⟨n + 1, h⟩) (iblk m c 1 ⟨n + 1, h⟩) := by
  unfold cell
  by_cases h1 : (n + 1) % 128 = 127
  · rw [outsAt0_C m c (⟨n + 1, h⟩ : Fin cfg0.N) h0 h1]
    refine (congrFun (acc_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1)
      (iblk m c 0 (⟨n + 1, h⟩ : Fin cfg0.N)) (iblk m c 1 (⟨n + 1, h⟩ : Fin cfg0.N))
      (outsAt0 m c ((⟨n + 1, h⟩ : Fin cfg0.N).val - 1) (Nat.lt_of_le_of_lt (Nat.sub_le _ _) (⟨n + 1, h⟩ : Fin cfg0.N).isLt)).2) (ix2 (0 : Fin 1) (0 : Fin 1))).trans ?_
    exact pay2_apply _ _ _
  · rw [outsAt0_B m c (⟨n + 1, h⟩ : Fin cfg0.N) h0 h1]
    refine (congrFun (acc_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) (fun hh => h1 ((hcond0_1 (⟨n + 1, h⟩ : Fin cfg0.N)).mp hh))
      (iblk m c 0 (⟨n + 1, h⟩ : Fin cfg0.N)) (iblk m c 1 (⟨n + 1, h⟩ : Fin cfg0.N))
      (outsAt0 m c ((⟨n + 1, h⟩ : Fin cfg0.N).val - 1) (Nat.lt_of_le_of_lt (Nat.sub_le _ _) (⟨n + 1, h⟩ : Fin cfg0.N).isLt)).2) (ix2 (0 : Fin 1) (0 : Fin 1))).trans ?_
    exact pay2_apply _ _ _

/-- THE INVARIANT: after step `n` the entry is the sum of the tile sums of `n`'s half from its first step to `n`. -/
theorem cell_eq (c : Dev nD) : ∀ (n : ℕ) (h : n < cfg0.N),
    cell m c n h = ∑ j ∈ Finset.range (n % 128 + 1), tileAt m c (n - n % 128 + j)
  | 0, h => by
    rw [cell_first m c ⟨0, h⟩ rfl (by show ¬0 % 128 = 127; decide), zero_add]
    show _ = ∑ j ∈ Finset.range 1, tileAt m c (0 - 0 % 128 + j)
    rw [Finset.sum_range_one]
    show _ = tileAt m c 0
    unfold tileAt
    rw [dif_pos h]
  | n + 1, h => by
    by_cases h0 : (n + 1) % 128 = 0
    · have h1 : ¬(n + 1) % 128 = 127 := by omega
      rw [cell_first m c ⟨n + 1, h⟩ h0 h1, zero_add, h0, Finset.sum_range_one]
      show _ = tileAt m c (n + 1)
      unfold tileAt
      rw [dif_pos h]
    · rw [cell_succ m c n h h0, cell_eq c n (Nat.lt_of_succ_lt h)]
      have e1 : (n + 1) % 128 = n % 128 + 1 := by omega
      have e2 : n + 1 - (n % 128 + 1) = n - n % 128 := by omega
      rw [e1, e2, Finset.sum_range_succ _ (n % 128 + 1)]
      refine congrArg (_ + ·) ?_
      rw [show n - n % 128 + (n % 128 + 1) = n + 1 by omega]
      unfold tileAt
      rw [dif_pos h]

/-- At a half's last step the output block holds the accumulator's entry at every place. -/
theorem block_last (c : Dev nD) (n : ℕ) (h : n + 1 < cfg0.N) (h0 : ¬(n + 1) % 128 = 0) (h1 : (n + 1) % 128 = 127)
    (j : S8x128.Idx) : (outsAt0 m c (n + 1) h).1 j = cell m c (n + 1) h := by
  unfold cell
  rw [outsAt0_C m c (⟨n + 1, h⟩ : Fin cfg0.N) h0 h1]
  refine (congrFun (out_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1)
      (iblk m c 0 (⟨n + 1, h⟩ : Fin cfg0.N)) (iblk m c 1 (⟨n + 1, h⟩ : Fin cfg0.N))
      (outsAt0 m c ((⟨n + 1, h⟩ : Fin cfg0.N).val - 1) (Nat.lt_of_le_of_lt (Nat.sub_le _ _) (⟨n + 1, h⟩ : Fin cfg0.N).isLt)).2) j).trans ?_
  refine (pay3_apply _ j).trans ?_
  exact (congrFun (acc_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1)
      (iblk m c 0 (⟨n + 1, h⟩ : Fin cfg0.N)) (iblk m c 1 (⟨n + 1, h⟩ : Fin cfg0.N))
      (outsAt0 m c ((⟨n + 1, h⟩ : Fin cfg0.N).val - 1) (Nat.lt_of_le_of_lt (Nat.sub_le _ _) (⟨n + 1, h⟩ : Fin cfg0.N).isLt)).2) (ix2 (0 : Fin 1) (0 : Fin 1))).symm

end Cert.KernelIdeal.Val

end
-- ==== Proof.KernelBlocks.lean ====
/-
  A grid step's blocks are rows of the argument arrays.

  At grid step t both input windows hold block (t, 0) of their [2097152, 40] arrays in blocks of [8192, 40]: entry (r, c)
  of the block is entry (8192·t + r, c) of the array. So the tile sum of step n is the sum of the losses of rows
  8192·n … 8192·n + 8191 of the two argument arrays.
-/
import proofs.«120968_j20624432956049_2_alg».proof.Proof.KernelAcc

noncomputable section

open Idealize.ShloMosaic Idealize.ShloMosaic.TcCoe Idealize.SL.Sem Idealize.ShloMosaic.ValueIdx

namespace Cert.KernelIdeal.Val

open Cert.KernelIdeal Cert.KernelIdeal.Gen Cert.SoftCE

variable (m : (ℓ : Loc nD τ sig) → Buf (Elt Ideal) ℓ)

/-- The logits as the kernel is launched with them. -/
abbrev logits (c : Dev nD) : Arr := m ((c : Thread nD τ).loc main_arg0)
/-- The labels as the kernel is launched with them. -/
abbrev labels (c : Dev nD) : Arr := m ((c : Thread nD τ).loc main_arg1)

/-- The input windows' block indices, decided over the grid: block row t, block column 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem row_lt (t : Fin cfg0.N) (r : Fin 8192) : t.val * 8192 + r.val < 2097152 := by
  have hN : cfg0.N = 256 := N_0
  have := t.isLt; have := r.isLt; omega

/-- Entry (r, k) of the logits' block at step t is entry (8192·t + r, k) of the logits. -/
theorem iblk0_apply (c : Dev nD) (t : Fin cfg0.N) (r : Fin 8192) (k : Fin 40) :
    (iblk m c 0 t : FVec Ideal S8192x40 .f32) (ix2 r k) = logits m c (ix2 ⟨t.val * 8192 + r.val, row_lt t r⟩ k) := by
  obtain ⟨e0, e1, -, -⟩ := idx_in t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 8192 + 1 * r.val = t.val * 8192 + r.val; rw [e0]; omega
  | ⟨1, _⟩ => show win0_0.index t (1 : Fin 2) * 40 + 1 * k.val = k.val; rw [e1]; omega

/-- Entry (r, k) of the labels' block at step t is entry (8192·t + r, k) of the labels. -/
theorem iblk1_apply (c : Dev nD) (t : Fin cfg0.N) (r : Fin 8192) (k : Fin 40) :
    (iblk m c 1 t : FVec Ideal S8192x40 .f32) (ix2 r k) = labels m c (ix2 ⟨t.val * 8192 + r.val, row_lt t r⟩ k) := by
  obtain ⟨-, -, e0, e1⟩ := idx_in t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 8192 + 1 * r.val = t.val * 8192 + r.val; rw [e0]; omega
  | ⟨1, _⟩ => show win0_1.index t (1 : Fin 2) * 40 + 1 * k.val = k.val; rw [e1]; omega

/-- The tile sum of step n is the sum of the losses of tile n's rows of the argument arrays. -/
theorem tileAt_eq (c : Dev nD) (n : ℕ) (h : n < cfg0.N) : tileAt m c n = tileSum (logits m c) (labels m c) n := by
  unfold tileAt tileSum step
  rw [dif_pos h, Finset.sum_range]
  refine Finset.sum_congr rfl fun r _ => ?_
  unfold rowLoss
  rw [dif_pos (row_lt ⟨n, h⟩ r)]
  have ex : blkRow (iblk m c 0 ⟨n, h⟩) r = rowOf (logits m c) ⟨n * 8192 + r.val, row_lt ⟨n, h⟩ r⟩ :=
    funext fun k => iblk0_apply m c ⟨n, h⟩ r k
  have et : blkRow (iblk m c 1 ⟨n, h⟩) r = rowOf (labels m c) ⟨n * 8192 + r.val, row_lt ⟨n, h⟩ r⟩ :=
    funext fun k => iblk1_apply m c ⟨n, h⟩ r k
  rw [ex, et]

end Cert.KernelIdeal.Val

end
-- ==== Proof.KernelFinal.lean ====
/-
  The output array, and the run read as the mean loss.

  The output is a [16, 128] array in two [8, 128] blocks, block q written once, at the last step of half q, with the
  accumulator's entry — the sum of the half's 128 tile sums — at every place. So entry (i, l) of the array is the sum
  of half (i / 8). The lines after the region add entries (0, 0) and (8, 0) and divide by 2097152.
-/
import proofs.«120968_j20624432956049_2_alg».proof.Proof.KernelBlocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.SoftCE

variable (m : (ℓ : Loc nD τ sig) → Buf (Elt Ideal) ℓ) (ρ : Dev nD → PrngReg)

/-- The output array: row i holds the sum of half i / 8 at every lane. -/
def partials (c : Dev nD) : Buf (Elt Ideal) ((c : Thread nD τ).loc main_v0) :=
  fun i => halfSum (logits m c) (labels m c) ((i 0).val / 8)

/-- The output window's block indices, decided over the grid: block row t / 128, block column 0. -/
theorem idx_out : ∀ t : Fin cfg0.N, win0_2.index t (0 : Fin 2) = t.val / 128 ∧ win0_2.index t (1 : Fin 2) = 0 :=
  (by decide +kernel : ∀ t : Fin grid0.N, _)

/-- What a half's last step writes back is its block of `partials`. -/
theorem flushed_eq (c : Dev nD) (t : Fin cfg0.N) (hf : (cfg0.win 2).flush t = true) :
    (dats m 0 c).flushed 2 t = ((cfg0.win 2).blk t).view.read (Elt Ideal) (partials m c) := by
  have h127 : t.val % 128 = 127 := (flush0_2 t).mp hf
  obtain ⟨e0, -⟩ := idx_out t
  show (cfg0.win 2).cut (grid0.coords t) ((dats m 0 c).after 2 t) = _
  rw [after0_2]
  funext j
  rw [View.read_apply]
  have hj : (j 0).val < 8 := (j 0).isLt
  obtain ⟨n, hn⟩ := t
  cases n with
  | zero => exact absurd h127 (by show ¬0 % 128 = 127; decide)
  | succ n =>
    have h127' : (n + 1) % 128 = 127 := h127
    have h0 : ¬(n + 1) % 128 = 0 := by omega
    have hN : n + 1 < 256 := lt_of_lt_of_eq hn (show cfg0.N = 256 from N_0)
    show (outsAt0 m c (n + 1) hn).1 j = partials m c (((cfg0.win 2).blk ⟨n + 1, hn⟩).view.emb j)
    rw [block_last m c n hn h0 h127' j, cell_eq m c (n + 1) hn]
    unfold partials halfSum
    have hemb : ((((cfg0.win 2).blk ⟨n + 1, hn⟩).view.emb j) 0).val = win0_2.index ⟨n + 1, hn⟩ (0 : Fin 2) * 8 + 1 * (j 0).val := rfl
    have e0' : win0_2.index ⟨n + 1, hn⟩ (0 : Fin 2) = (n + 1) / 128 := e0
    rw [hemb, e0', show ((n + 1) / 128 * 8 + 1 * (j 0).val) / 8 = (n + 1) / 128 by omega, h127']
    refine Finset.sum_congr rfl fun k hk => ?_
    have hk' : k < 128 := Finset.mem_range.mp hk
    have hlt : n + 1 - 127 + k < cfg0.N := by rw [show cfg0.N = 256 from N_0]; omega
    rw [tileAt_eq m c _ hlt, show n + 1 - 127 + k = (n + 1) / 128 * 128 + k by omega]

/-- Every index of the output array is in the block some half's last step writes back. -/
theorem cover (c : Dev nD) (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 256 := N_0
  obtain ⟨t, ht⟩ : ∃ t : Fin cfg0.N, t.val = 128 * ((i 0).val / 8) + 127 := ⟨⟨_, by omega⟩, rfl⟩
  obtain ⟨e0, e1⟩ := idx_out t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    rw [e0, ht]; omega
  | ⟨1, _⟩ =>
    show win0_2.index t (1 : Fin 2) * 128 ≤ (i 1).val ∧ (i 1).val < win0_2.index t (1 : Fin 2) * 128 + 128
    rw [e1]; omega

/-- So the output array ends at `partials`. -/
theorem final_out (c : Dev nD) : (dats m 0 c).arrAt 2 cfg0.N = partials m c :=
  (dats m 0 c).arrAt_eq_of_cover 2 (partials m c) (flushed_eq m c) (cover c)

end Cert.KernelIdeal.Val

end
-- ==== Proof.KernelRun.lean ====
/-
  The kernel's run, read: the program's result is the mean loss of the two argument arrays.

  After the region the program reads entries (0, 0) and (8, 0) of the [16, 128] output — the sums of the two halves —
  adds them and divides by 2097152.
-/
import proofs.«120968_j20624432956049_2_alg».proof.Proof.KernelFinal
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.SoftCE

variable (m : (ℓ : Loc nD τ sig) → Buf (Elt Ideal) ℓ) (ρ : Dev nD → PrngReg)

/-- A one-entry slice of a [16, 128] array re-laid as a scalar is the array's entry at the slice's offset. -/
theorem slice_scalar_apply (A : S16x128.Idx → EReal) (off : Fin 2 → Nat) (h : S16x128.Slices off S1x1) (p : Fin 16) (q : Fin 128)
    (hp : off 0 = p.val) (hq : off 1 = q.val) (i : S_.Idx) :
    shapeCast S_ (extractStridedSlice S1x1 off A h) shapeCasts_S1x1_S_ i = A (ix2 p q) := by
  have hk : (S1x1.rowMajor (ix2 (0 : Fin 1) (0 : Fin 1))).val = (S_.rowMajor i).val := by
    rw [Shape.rowMajor_val_two]
    have : (S_.rowMajor i).val < 1 := (S_.rowMajor i).isLt
    show 0 * 1 + 0 = _
    omega
  refine (shapeCast_apply _ shapeCasts_S1x1_S_ i (ix2 (0 : Fin 1) (0 : Fin 1)) hk).trans ?_
  refine extractStridedSlice_apply off A h (ix2 (0 : Fin 1) (0 : Fin 1)) (ix2 p q) fun a => ?_
  match a with
  | ⟨0, _⟩ => show p.val = off 0 + 0; omega
  | ⟨1, _⟩ => show q.val = off 1 + 0; omega

/-- Entry (p, q) of the output array is the sum of half p / 8. -/
theorem partials_apply (c : Dev nD) (p : Fin 16) (q : Fin 128) (k : ℕ) (hk : p.val / 8 = k) :
    (partials m c) (ix2 p q) = halfSum (logits m c) (labels m c) k := by
  subst hk; rfl

/-- The output array as the lines after the region find it. -/
theorem tail_array (c : Dev nD) :
    Pipeline.withArrays (cfgs 0).spec c (V0 m c) (fun w => (dats m 0 c).arrAt w (cfgs 0).N) (Proc.devRef .tc main_v0)
      = partials m c :=
  (Pipeline.withArrays_arr spec0 launch0.win.arr_inj c _ _ 2).trans (final_out m c)

/-- The program's result: the two halves' sums added and divided by 2097152. -/
theorem result_eq (c : Dev nD) :
    Pipeline.afterTail₀ cfgs (dats m) 0 (V0 m) [hostOps1] c main_v6 = fun _ => meanLoss (logits m c) (labels m c) := by
  unfold Pipeline.afterTail₀
  show StableHlo.after hostOps1 _ (Proc.devRef .tc main_v6) = _
  after_results
  rw [tail_array m c]
  funext i
  show Ideal.div ((shapeCast S_ (extractStridedSlice S1x1 ![0, 0] (partials m c) slices_S16x128_S1x1_0_0) shapeCasts_S1x1_S_ i : EReal)
      + (shapeCast S_ (extractStridedSlice S1x1 ![8, 0] (partials m c) slices_S16x128_S1x1_8_0) shapeCasts_S1x1_S_ i : EReal))
      (Ideal.ofBits .f32 0x4A000000#32) = _
  rw [slice_scalar_apply (partials m c) ![0, 0] _ ⟨0, by decide⟩ ⟨0, by decide⟩ rfl rfl i,
    slice_scalar_apply (partials m c) ![8, 0] _ ⟨8, by decide⟩ ⟨0, by decide⟩ rfl rfl i,
    partials_apply m c ⟨0, by decide⟩ ⟨0, by decide⟩ 0 rfl, partials_apply m c ⟨8, by decide⟩ ⟨0, by decide⟩ 1 rfl]
  unfold meanLoss
  rfl

/-- THE RUN: every weakly fair execution ends with the result at the mean loss of the arguments, the arguments unchanged. -/
theorem run : θ_run defs (onTc (τ := τ) (main (F := Ideal))) ⟨m, fun _ => 0, ρ⟩ fun r => ∀ c : Dev nD,
      r.2.mem ((c.tc : Thread nD τ).loc main_v6) = (fun _ => meanLoss (logits m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v6 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.FinInputs.lean ====
/-
  Finite inputs: when the finiteness predicate of the two argument arrays is all ones, every entry of the first
  array is a real number.

  The predicate is  all (|x| < +∞) ∧ all (|t| < +∞):  each "all" is a reduction by "and" from 1 of the one-bit array
  of comparisons, the bound is the float 0x7F800000 = +∞, and |x| = max x (-x). An extended real whose absolute value
  is below ⊤ is neither ⊥ nor ⊤.
-/
import proofs.«120968_j20624432956049_2_alg».proof.Pre_finite_inputs
import proofs.«120968_j20624432956049_2_alg».proof.Proof.Spec
import Idealize.ShloMosaic.Lib.ReduceAll
import Idealize.ShloMosaic.Lib.Pipeline.Value
import Idealize.ShloMosaic.PureOps.Ideal.Laws

noncomputable section

namespace Cert.SoftCE

open Idealize.ShloMosaic Idealize.ShloMosaic.ValueIdx

/-- The float 0x7F800000 is +∞. -/
theorem ofBits_inf_f32 : Ideal.ofBits .f32 0x7F800000#32 = ⊤ := by simp [Ideal.ofBits, Ideal.ieee]

/-- An extended real whose absolute value max x (-x) is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has one index. -/
instance subsingleton_scalarIdx : Subsingleton Cert.Pre_finite_inputs.S_.Idx := ⟨fun a b => funext fun d => d.elim0⟩

/-- Under the finiteness predicate every entry of the first array is a real. -/
theorem finite_of_pre (x0 x1 : Arr) [Cert.Pre_finite_inputs.Facts]
    (h : Cert.Pre_finite_inputs.fn (F := Ideal) x0 x1 = fun _ => 1#1) : ∀ i, ∃ r : ℝ, x0 i = (r : EReal) := by
  intro i
  have h0 := congrFun h ix0
  dsimp only [Cert.Pre_finite_inputs.fn] at h0
  have h1 := (IntOp.andi_eq_one.1 h0).1
  have h2 := Host.reduce_andi_all _ _ _ _ ix0 h1 i
  rw [cmpf_apply, broadcastInDim_apply _ _ _ i ix0 (fun a => a.elim0)] at h2
  have h3 : Ideal.cmp .olt (max (x0 i) (-(x0 i))) (Ideal.ofBits .f32 0x7F800000#32) = 1#1 := h2
  rw [ofBits_inf_f32] at h3
  have h4 : max (x0 i) (-(x0 i)) < ⊤ := by
    by_contra hn
    simp [Ideal.cmp, hn] at h3
  exact real_of_abs_lt_top _ h4

end Cert.SoftCE

end
-- ==== Proof.Law.lean ====
/-
  The one law of the extended reals that joins the two programs: for REAL x and m and ANY extended real L,
      x - (m + L) = (x - m) - L.
  (It fails when m is infinite: with m = ⊤ and L = ⊥ the left side is ⊤ and the right side ⊥.)
-/
import Idealize.ShloMosaic.PureOps.Ideal

namespace Cert.SoftCE

/-- Subtracting a sum from a real, when the sum's first term is real, is subtracting its terms one after the other. -/
theorem coe_sub_coe_add (x m : ℝ) (L : EReal) :
    (x : EReal) - ((m : EReal) + L) = ((x : EReal) - (m : EReal)) - L := by
  have h : ((x : EReal) - (m : EReal)) = ((x - m : ℝ) : EReal) := (EReal.coe_sub x m).symm
  induction L using EReal.rec with
  | bot => rw [h, EReal.add_bot, EReal.coe_sub_bot, EReal.coe_sub_bot]
  | coe l => norm_cast; ring
  | top => rw [EReal.coe_add_top, EReal.sub_top, EReal.sub_top]

end Cert.SoftCE
-- ==== Proof.RefRow.lean ====
/-
  The reference's stages, read one row at a time.

  For row n with logits xr = (x[n,c])_c, the called function's stages are: the row maximum M = max(⊥, fold max ⊥ xr) = fold max ⊥ xr;
  the shifted logits xr c - M; the sum s = 0 + Σ_c exp (xr c - M); the logarithm L = log s; and the result (xr c - M) - L.
  The caller multiplies by the labels tr c, sums the row from 0 and negates: -(0 + Σ_c tr c · ((xr c - M) - L)).
  When every logit is real, M is real, (xr c - M) - L = xr c - (M + L), and the row's value is the specification's
  loss 0 - Σ_c tr c · (xr c - (M + L)).
-/
import proofs.«120968_j20624432956049_2_alg».proof.Proof.RefRead
import proofs.«120968_j20624432956049_2_alg».proof.Proof.Spec
import proofs.«120968_j20624432956049_2_alg».proof.Proof.Law
import Idealize.ShloMosaic.Lib.ValueIdx

noncomputable section

namespace Cert.ReferenceIdeal.RefValue

open Cert.ReferenceIdeal Cert.ReferenceIdeal.ReadP Cert.SoftCE Idealize.ShloMosaic Idealize.ShloMosaic.ValueIdx

/-- The float 0xFF800000 is -∞. -/
theorem ofBits_neg_inf_f32 : Ideal.ofBits .f32 0xFF800000#32 = ⊥ := by simp [Ideal.ofBits, Ideal.ieee]

/-! ## Indices -/

/-- The reduced index n with the column k put back is (n, k). -/
theorem lift_ix1 (h : S2097152x40.Reduces [1] S2097152) (n : Fin 2097152) (k : Fin (S2097152x40.size 1)) :
    h.lift (ix1 n) k = ix2 n (⟨k.val, k.isLt⟩ : Fin 40) := by
  funext c; apply Fin.ext
  fin_cases c <;> rfl

theorem idx_v3_v4 (n : Fin 2097152) (c : Fin 40) : idx_main_call0_v3 (idx_main_call0_v4 (ix2 n c)) = ix1 n := by
  funext a; match a with | ⟨0, _⟩ => rfl

theorem idx_v8_v10 (n : Fin 2097152) (c : Fin 40) : idx_main_call0_v8 (idx_main_call0_v10 (ix2 n c)) = ix1 n := by
  funext a; match a with | ⟨0, _⟩ => rfl

theorem idx_v7 (n : Fin 2097152) (k : Fin 40) : idx_main_call0_v7 (ix1 n) k = ix2 n k := by
  funext a; match a with | ⟨0, _⟩ => rfl | ⟨1, _⟩ => rfl

theorem idx_v2 (n : Fin 2097152) (k : Fin 40) : idx_main_v2 (ix1 n) k = ix2 n k := by
  funext a; match a with | ⟨0, _⟩ => rfl | ⟨1, _⟩ => rfl

/-! ## The called function's stages at row n -/

/-- The max-reduce of row n from -∞ is the row's maximum taken from ⊥. -/
theorem v0_row (x0 : Arr) (n : Fin 2097152) : val_main_call0_v0 (F := Ideal) x0 (ix1 n) = rowMax (rowOf x0 n) := by
  have hR : S2097152x40.Reduces [1] S2097152 := by decide
  unfold val_main_call0_v0
  refine (Host.reduce_eq_fold_single (FloatOps.maximumf (F := Ideal) (φ := .f32)) x0 (val_main_call0_cst (F := Ideal))
    Facts₀.reducesTo_S2097152x40_S2097152_d1 hR Facts₀.h_S_ (ix1 n)).trans ?_
  rw [val_main_call0_cst_apply, Ideal.ofBits_def, ofBits_neg_inf_f32]
  have hf : (x0 ∘ hR.lift (ix1 n)) = rowOf x0 n := funext fun k => congrArg x0 (lift_ix1 hR n k)
  rw [hf]
  rfl

/-- The maximum with the splat of -∞ changes nothing. -/
theorem v2_row (x0 : Arr) (n : Fin 2097152) : val_main_call0_v2 (F := Ideal) x0 (ix1 n) = rowMax (rowOf x0 n) := by
  rw [val_main_call0_v2_apply, val_main_call0_v1_apply, val_main_call0_cst_0_apply, v0_row, Ideal.ofBits_def,
    ofBits_neg_inf_f32, Ideal.maximumf_def]
  exact max_eq_right bot_le

/-- The shifted logits. -/
theorem v5_row (x0 : Arr) (n : Fin 2097152) (c : Fin 40) :
    val_main_call0_v5 (F := Ideal) x0 (ix2 n c) = rowOf x0 n c - rowMax (rowOf x0 n) := by
  rw [val_main_call0_v5_apply, val_main_call0_v4_apply, val_main_call0_v3_apply, idx_v3_v4, v2_row, Ideal.subf_def]
  rfl

/-- The sum of the exponentials of the shifted logits. -/
theorem v7_row (x0 : Arr) (n : Fin 2097152) :
    val_main_call0_v7 (F := Ideal) x0 (ix1 n) = ∑ c : Fin 40, Ideal.exp (rowOf x0 n c - rowMax (rowOf x0 n)) := by
  rw [val_main_call0_v7_apply, val_main_call0_cst_1_apply, Ideal.ofBits_def, Ideal.ofBits_zero_f32, zero_add]
  refine Finset.sum_congr rfl fun k _ => ?_
  rw [idx_v7, val_main_call0_v6_apply, v5_row, Ideal.hostUnary_exp_def]

/-- The logarithm of that sum, at every column of the row. -/
theorem v10_row (x0 : Arr) (n : Fin 2097152) (c : Fin 40) :
    val_main_call0_v10 (F := Ideal) x0 (ix2 n c) = rowLse (rowOf x0 n) := by
  rw [val_main_call0_v10_apply, val_main_call0_v9_apply, val_main_call0_v8_apply, idx_v8_v10, v7_row, Ideal.hostUnary_log_def]
  rfl

/-- The called function's result. -/
theorem v0main_row (x0 : Arr) (n : Fin 2097152) (c : Fin 40) :
    val_main_v0 (F := Ideal) x0 (ix2 n c) = (rowOf x0 n c - rowMax (rowOf x0 n)) - rowLse (rowOf x0 n) := by
  rw [val_main_v0_apply, v5_row, v10_row, Ideal.subf_def]

/-! ## The caller's row -/

/-- A row of reals has a real maximum. -/
theorem rowMax_real (xr : Fin 40 → EReal) (h : ∀ c, ∃ r : ℝ, xr c = (r : EReal)) : ∃ m : ℝ, rowMax xr = (m : EReal) := by
  have hlt : rowMax xr < ⊤ := by
    unfold rowMax
    rw [Finset.fold_max_lt]
    refine ⟨bot_lt_top, fun c _ => ?_⟩
    obtain ⟨r, hr⟩ := h c
    rw [hr]; exact EReal.coe_lt_top r
  have hgt : ⊥ < rowMax xr := by
    obtain ⟨r, hr⟩ := h 0
    have hle : xr 0 ≤ rowMax xr := by
      unfold rowMax
      rw [Finset.le_fold_max]
      exact Or.inr ⟨0, Finset.mem_univ _, le_rfl⟩
    rw [hr] at hle
    exact lt_of_lt_of_le (EReal.bot_lt_coe r) hle
  exact ⟨(rowMax xr).toReal, (EReal.coe_toReal hlt.ne hgt.ne').symm⟩

/-- The labels times the called function's result, summed over the row from 0, negated. -/
theorem v3_row (x0 x1 : Arr) (n : Fin 2097152) :
    val_main_v3 (F := Ideal) x0 x1 (ix1 n)
      = -(0 + ∑ c : Fin 40, rowOf x1 n c * ((rowOf x0 n c - rowMax (rowOf x0 n)) - rowLse (rowOf x0 n))) := by
  rw [val_main_v3_apply, val_main_v2_apply, val_main_cst_apply, Ideal.ofBits_def, Ideal.ofBits_zero_f32, Ideal.hostNegf_def,
    Ideal.negf_def]
  refine congrArg (fun s => -(0 + s)) (Finset.sum_congr rfl fun k _ => ?_)
  rw [idx_v2, val_main_v1_apply, v0main_row, Ideal.mulf_def]
  rfl

/-- With real logits the row's value is the specification's loss of the row. -/
theorem v3_row_loss (x0 x1 : Arr) (hx : ∀ i, ∃ r : ℝ, x0 i = (r : EReal)) (n : Fin 2097152) :
    val_main_v3 (F := Ideal) x0 x1 (ix1 n) = lossOf (rowOf x0 n) (rowOf x1 n) := by
  rw [v3_row]
  unfold lossOf
  obtain ⟨m, hm⟩ := rowMax_real (rowOf x0 n) (fun c => hx (ix2 n c))
  rw [zero_add, zero_sub]
  refine congrArg Neg.neg (Finset.sum_congr rfl fun c _ => ?_)
  obtain ⟨r, hr⟩ := hx (ix2 n c)
  have hr' : rowOf x0 n c = (r : EReal) := hr
  rw [hr', hm, coe_sub_coe_add]

end Cert.ReferenceIdeal.RefValue

end
-- ==== Proof.RefSplit.lean ====
/-
  Regrouping a sum over an initial segment of the naturals into consecutive blocks of equal length:
      Σ_{n < K·B} g n = Σ_{k < K} Σ_{r < B} g (k·B + r),
  in any additive commutative monoid.
-/
import Mathlib.Algebra.BigOperators.Group.Finset.Basic
import Mathlib.Algebra.BigOperators.Fin
import Mathlib.Tactic.NormNum

namespace Cert.RefSplit

open Finset

variable {M : Type*} [AddCommMonoid M]

/-- A sum over the first `K * B` naturals is the sum over `K` consecutive blocks of `B`. -/
theorem sum_range_mul (g : ℕ → M) (B : ℕ) :
    ∀ K : ℕ, ∑ n ∈ range (K * B), g n = ∑ k ∈ range K, ∑ r ∈ range B, g (k * B + r)
  | 0 => by rw [Nat.zero_mul, sum_range_zero, sum_range_zero]
  | K + 1 => by
    rw [Nat.succ_mul, sum_range_add, sum_range_mul g B K, sum_range_succ]

/-- A sum over the first `2 * B` naturals is the sum of its two halves. -/
theorem sum_range_two_mul (g : ℕ → M) (B : ℕ) :
    ∑ n ∈ range (2 * B), g n = (∑ r ∈ range B, g (0 * B + r)) + ∑ r ∈ range B, g (1 * B + r) := by
  rw [sum_range_mul g B 2, sum_range_succ, sum_range_succ, sum_range_zero, zero_add]

/-- A sum over `Fin N` is the sum over the first `N` naturals of any extension of the summand. -/
theorem sum_fin_eq_sum_range (N : ℕ) (f : Fin N → M) (g : ℕ → M) (hg : ∀ n : Fin N, g n.val = f n) :
    ∑ n : Fin N, f n = ∑ n ∈ range N, g n := by
  rw [← Fin.sum_univ_eq_sum_range g N]
  exact Finset.sum_congr rfl fun n _ => (hg n).symm

/-- The first 2097152 naturals as 2 halves of 128 blocks of 8192. -/
theorem sum_range_2097152 (g : ℕ → M) :
    ∑ n ∈ range 2097152, g n
      = (∑ j ∈ range 128, ∑ r ∈ range 8192, g ((0 * 128 + j) * 8192 + r))
        + ∑ j ∈ range 128, ∑ r ∈ range 8192, g ((1 * 128 + j) * 8192 + r) := by
  have e1 : (2097152 : ℕ) = 256 * 8192 := by norm_num
  have e2 : (256 : ℕ) = 2 * 128 := by norm_num
  rw [e1, sum_range_mul g 8192 256, e2]
  exact sum_range_two_mul (fun k => ∑ r ∈ range 8192, g (k * 8192 + r)) 128

end Cert.RefSplit
-- ==== Proof.RefValue.lean ====
/-
  The reference is the mean loss.

  The reference sums the 2097152 row values from 0 and divides by 2^21. With real logits each row value is the
  specification's loss of that row; the rank-1 indices are the naturals below 2097152, a sum over them is the sum
  over the first 2097152 naturals, and that sum regroups as 2 halves of 128 tiles of 8192 rows.
-/
import proofs.«120968_j20624432956049_2_alg».proof.Proof.RefRow
import proofs.«120968_j20624432956049_2_alg».proof.Proof.RefSplit

noncomputable section

namespace Cert.ReferenceIdeal.RefValue

open Cert.ReferenceIdeal Cert.ReferenceIdeal.ReadP Cert.SoftCE Idealize.ShloMosaic Idealize.ShloMosaic.ValueIdx

/-- The rank-1 indices below 2097152 are the naturals below 2097152. -/
def idxEquiv1 : Fin 2097152 ≃ S2097152.Idx where
  toFun := ix1
  invFun j := j 0
  left_inv _ := rfl
  right_inv j := (eq_ix1 j).symm

/-- The loss of row number n.val is the loss of row n. -/
theorem rowLoss_fin (x0 x1 : Arr) (n : Fin 2097152) : rowLoss x0 x1 n.val = lossOf (rowOf x0 n) (rowOf x1 n) := by
  unfold rowLoss
  rw [dif_pos n.isLt]

/-- The sum of all row values is the sum of the two halves. -/
theorem v3_total (x0 x1 : Arr) (hx : ∀ i, ∃ r : ℝ, x0 i = (r : EReal)) :
    ∑ j : S2097152.Idx, val_main_v3 (F := Ideal) x0 x1 j = halfSum x0 x1 0 + halfSum x0 x1 1 := by
  have h1 : ∑ n : Fin 2097152, lossOf (rowOf x0 n) (rowOf x1 n) = ∑ j : S2097152.Idx, val_main_v3 (F := Ideal) x0 x1 j :=
    Fintype.sum_equiv idxEquiv1 _ _ fun n => (v3_row_loss x0 x1 hx n).symm
  have h2 : ∑ n : Fin 2097152, lossOf (rowOf x0 n) (rowOf x1 n) = ∑ n ∈ Finset.range 2097152, rowLoss x0 x1 n :=
    RefSplit.sum_fin_eq_sum_range 2097152 _ (rowLoss x0 x1) (rowLoss_fin x0 x1)
  rw [← h1, h2, RefSplit.sum_range_2097152]
  unfold halfSum tileSum
  rfl

/-- The reference's result is the mean loss. -/
theorem val_main_v5_eq_meanLoss (x0 x1 : Arr) (hx : ∀ i, ∃ r : ℝ, x0 i = (r : EReal)) :
    val_main_v5 (F := Ideal) x0 x1 = fun _ => meanLoss x0 x1 := by
  funext i
  rw [val_main_v5_apply, val_main_v4_apply, val_main_cst_0_apply, val_main_cst_1_apply, Ideal.ofBits_def, Ideal.ofBits_def,
    Ideal.ofBits_zero_f32, zero_add, v3_total x0 x1 hx, Ideal.hostDivf_def]
  rfl

end Cert.ReferenceIdeal.RefValue

end
-- ==== Proof.lean ====
/-
  Soft-label cross entropy: the kernel against its reference, over the extended reals.

  Both programs take logits x and labels t, each 2097152 rows of 40, and return the mean over the rows of
      loss(row) = -Σ_c t_c · logp_c,     logp_c = x_c - M - log Σ_c' exp (x_c' - M),     M = max_c x_c.
  The kernel walks the rows in 2 halves of 128 tiles of 8192 rows, keeps one running sum per half, forms
  x_c - (M + log Σ …), writes each half's sum into a block of a [16, 128] array, and afterwards adds the two halves and
  divides by 2097152. The reference forms (x_c - M) - log Σ … and sums all rows at once before the same division.

  The two arrangements agree: a sum of extended reals may be regrouped freely; max(⊥, M) = M; 0 - a = -a; and
  x - (M + L) = (x - M) - L for real x and M and any extended real L. The last law is where finite inputs are used: the
  logits are real, hence so is each row's maximum. Both runs therefore end at the one function `meanLoss` of the
  argument arrays.

  The three programs terminate without a fault and leave their arguments unchanged; nothing was rewritten between
  the kernel and its reading over the extended reals.
-/
import proofs.«120968_j20624432956049_2_alg».proof.Defs
import proofs.«120968_j20624432956049_2_alg».proof.Proof.Gen.Kernel
import proofs.«120968_j20624432956049_2_alg».proof.Proof.Gen.Kernel.Frame
import proofs.«120968_j20624432956049_2_alg».proof.Proof.Gen.KernelIdeal
import proofs.«120968_j20624432956049_2_alg».proof.Proof.Gen.KernelIdeal.Frame
import proofs.«120968_j20624432956049_2_alg».proof.Proof.Gen.ReferenceIdeal
import proofs.«120968_j20624432956049_2_alg».proof.Proof.Gen.Pre_finite_inputs
import proofs.«120968_j20624432956049_2_alg».proof.Proof.KernelRun
import proofs.«120968_j20624432956049_2_alg».proof.Proof.RefRun
import proofs.«120968_j20624432956049_2_alg».proof.Proof.RefRead
import proofs.«120968_j20624432956049_2_alg».proof.Proof.FinInputs
import proofs.«120968_j20624432956049_2_alg».proof.Proof.RefValue

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its reading over the extended reals. -/
theorem preserves : Cert.preserves_Kernel_KernelIdeal := trivial

/-- Over the extended reals, from finite logits, kernel and reference both end at the mean loss of the arguments:
    the kernel by summing the row losses tile by tile and half by half, the reference by one sum over all rows; the
    row losses agree because the logits and hence each row's maximum are real. -/
theorem algebraic : Cert.algebraic_KernelIdeal_ReferenceIdeal := by
  intro m ρ m' ρ' hpre hagree
  refine ⟨fun c => fun _ => Cert.SoftCE.meanLoss (Cert.KernelIdeal.Val.logits m c) (Cert.KernelIdeal.Val.labels m c),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2, Cert.ReferenceIdeal.ReadP.val_main_v5_eq]
  exact Cert.ReferenceIdeal.RefValue.val_main_v5_eq_meanLoss _ _ (Cert.SoftCE.finite_of_pre _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
